-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S1024x128 : Shape := ⟨2, ![1024, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S65536x128 .f32) (main_arg1 : FVec F S1024x128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S65536x128 : Shape := ⟨2, ![65536, 128]⟩
abbrev S1024x128 : Shape := ⟨2, ![1024, 128]⟩
abbrev S65536x1024 : Shape := ⟨2, ![65536, 1024]⟩
abbrev S2048x128 : Shape := ⟨2, ![2048, 128]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1x1024 : Shape := ⟨2, ![1, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S65536x128, .f32⟩
  | .hbm, ⟨1, _⟩ => ⟨S1024x128, .f32⟩
  | .hbm, ⟨2, _⟩ => ⟨S65536x1024, .f32⟩
  | .local _ .vmem, ⟨0, _⟩ => ⟨S2048x128, .f32⟩
  | .local _ .vmem, ⟨1, _⟩ => ⟨S2048x128, .f32⟩
  | .local _ .vmem, ⟨2, _⟩ => ⟨S1024x128, .f32⟩
  | .local _ .vmem, ⟨3, _⟩ => ⟨S2048x1024, .f32⟩
  | .local _ .vmem, ⟨4, _⟩ => ⟨S2048x1024, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x128_S2048x128_0_0 : ∀ a, (![0, 0] : Fin 2 → Nat) a + S2048x128.size a ≤ S2048x128.size a
  h_S2048x128 : 0 < S2048x128.numel
  inb_S1024x128_S1024x128_0_0 : ∀ a, (![0, 0] : Fin 2 → Nat) a + S1024x128.size a ≤ S1024x128.size a
  h_S1024x128 : 0 < S1024x128.numel
  reduces_S2048x128_S2048 : S2048x128.Reduces [1] S2048
  shapeCasts_S2048_S2048x1 : S2048.ShapeCasts S2048x1
  reduces_S1024x128_S1024 : S1024x128.Reduces [1] S1024
  shapeCasts_S1024_S1024x1 : S1024.ShapeCasts S1024x1
  transposes_S1024x1_p1_0_S1x1024 : S1024x1.Transposes [1, 0] S1x1024
  transposes_S1024x128_p1_0_S128x1024 : S1024x128.Transposes [1, 0] S128x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)

variable [Facts₀]

def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x128 : Shape := ⟨2, ![65536, 128]⟩
abbrev S1024x128 : Shape := ⟨2, ![1024, 128]⟩
abbrev S_ : Shape := ⟨0, ![]⟩
abbrev S65536 : Shape := ⟨1, ![65536]⟩
abbrev S1024 : Shape := ⟨1, ![1024]⟩
abbrev S65536x1 : Shape := ⟨2, ![65536, 1]⟩
abbrev S1x1024 : Shape := ⟨2, ![1, 1024]⟩
abbrev S65536x1024 : Shape := ⟨2, ![65536, 1024]⟩
abbrev S128x1024 : Shape := ⟨2, ![128, 1024]⟩

abbrev nBuf : Space → Nat
  | .hbm => 29
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S1024x128, .f32⟩
  | .hbm, ⟨2, _⟩ => ⟨S65536x128, .f32⟩
  | .hbm, ⟨3, _⟩ => ⟨S_, .f32⟩
  | .hbm, ⟨4, _⟩ => ⟨S65536, .f32⟩
  | .hbm, ⟨5, _⟩ => ⟨S1024x128, .f32⟩
  | .hbm, ⟨6, _⟩ => ⟨S_, .f32⟩
  | .hbm, ⟨7, _⟩ => ⟨S1024, .f32⟩
  | .hbm, ⟨8, _⟩ => ⟨S65536x1, .f32⟩
  | .hbm, ⟨9, _⟩ => ⟨S1x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S128x1024, .f32⟩
  | .hbm, ⟨14, _⟩ => ⟨S65536x1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  reducesTo_S65536x128_S65536_d1 : S65536x128.ReducesTo [1] S65536
  h_S_ : 0 < S_.numel
  reducesTo_S1024x128_S1024_d1 : S1024x128.ReducesTo [1] S1024
  bcast_S65536_S65536x1_0 : S65536.BroadcastsInDim S65536x1 (![0] : Fin 1 → Fin S65536x1.rank)
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x128_S128x1024_1_0 : S1024x128.Transposes [1, 0] S128x1024
  bcast_S_S65536x1024 : S_.BroadcastsInDim S65536x1024 (![] : Fin 0 → Fin S65536x1024.rank)
  dot_S65536x128_S128x1024_S65536x1024_1_0_0_1_n_n_wf : DotDims.WF S65536x128 S128x1024 S65536x1024 [1] [0] [0] [1] [] []

variable [Facts₀]

def dot_S65536x128_S128x1024_S65536x1024_1_0_0_1_n_n : DotDims S65536x128 S128x1024 S65536x1024 where
  lhsContracting := [1]
  rhsContracting := [0]
  lhsNonContracting := [0]
  rhsNonContracting := [1]
  lhsBatch := []
  rhsBatch := []
  wf := dot_S65536x128_S128x1024_S65536x1024_1_0_0_1_n_n_wf

class Facts : Prop extends Facts₀ where

variable [Facts]
-- ==== Proof.Distance.lean ====
/-
  The function both programs compute, and the one law that joins their last steps.

  For a row `xr` of the first argument and a row `wr` of the second (each 128 long) the squared Euclidean distance is
  expanded as  |xr|² + |wr|² − 2·⟨xr, wr⟩ ; it is clamped below at zero, its square root taken, and the result is
  minus one half of that root. One program multiplies the root by the constant −1/2; the other negates it, divides by 2,
  and then applies the exponential followed by the logarithm. On the extended reals the logarithm undoes the
  exponential at EVERY point (−∞ ↦ 0 ↦ −∞, +∞ ↦ +∞ ↦ +∞, and a real r ↦ eʳ > 0 ↦ r), and dividing −s by 2 is
  multiplying s by −1/2, so the two last steps agree for every extended real s: no finiteness is used.
-/
import Idealize.ShloMosaic.PureOps.Ideal
import Idealize.ShloMosaic.PureOps.Ideal.Laws
import Idealize.ShloMosaic.Lib.ValueIdx

noncomputable section

namespace Cert.Distance

open Idealize.ShloMosaic Idealize.ShloMosaic.ValueIdx

/-! ## The two constants whose values the closing law needs -/

/-- The pattern of `2.0` denotes the real number 2. -/
theorem two_eq : Ideal.ofBits .f32 0x40000000#32 = ((2 : ℝ) : EReal) := by
  simp [Ideal.ofBits, Ideal.ieee, -EReal.coe_mul]; norm_num

/-- The pattern of `-0.5` denotes the real number −1/2. -/
theorem negHalf_eq : Ideal.ofBits .f32 0xBF000000#32 = ((-(1 / 2) : ℝ) : EReal) := by
  simp [Ideal.ofBits, Ideal.ieee, -EReal.coe_mul]; norm_num

/-! ## The logarithm undoes the exponential on every extended real -/

theorem log_exp (y : EReal) : Ideal.log (Ideal.exp y) = y := by
  induction y using EReal.rec with
  | bot => rw [Ideal.exp_bot, ← EReal.coe_zero, Ideal.log_coe, if_pos le_rfl]
  | top => rw [Ideal.exp_top, Ideal.log_top]
  | coe r => rw [Ideal.exp_coe, Ideal.log_coe, if_neg (not_le.mpr (Real.exp_pos r)), Real.log_exp]

/-- log (exp (−s / 2)) = (−1/2) · s, for every extended real `s`. -/
theorem log_exp_neg_half (s : EReal) :
    Ideal.log (Ideal.exp (Ideal.div (-s) (Ideal.ofBits .f32 0x40000000#32))) = Ideal.ofBits .f32 0xBF000000#32 * s := by
  rw [log_exp, two_eq, negHalf_eq, Ideal.div_coe (by norm_num : (2 : ℝ) ≠ 0), EReal.coe_neg, neg_mul, neg_mul, mul_comm]

/-! ## The function -/

abbrev SX : Shape := ⟨2, ![65536, 128]⟩
abbrev SW : Shape := ⟨2, ![1024, 128]⟩
abbrev SO : Shape := ⟨2, ![65536, 1024]⟩

/-- |xr|² + |wr|² − 2·⟨xr, wr⟩. -/
def sqdist (xr wr : Fin 128 → EReal) : EReal :=
  ((∑ k : Fin 128, xr k * xr k) + (∑ k : Fin 128, wr k * wr k))
    - Ideal.ofBits .f32 0x40000000#32 * ∑ k : Fin 128, xr k * wr k

/-- (−1/2) · √(max(|xr|² + |wr|² − 2·⟨xr, wr⟩, 0)). -/
def halfNegDist (xr wr : Fin 128 → EReal) : EReal :=
  Ideal.ofBits .f32 0xBF000000#32 * Ideal.sqrt (max (sqdist xr wr) (Ideal.ofBits .f32 0x00000000#32))

/-- Entry (p, q) of the result depends on row `p` of `x` and row `q` of `w` only. -/
def entry (x : SX.Idx → EReal) (w : SW.Idx → EReal) (p : Fin 65536) (q : Fin 1024) : EReal :=
  halfNegDist (fun k => x (ix2 p k)) (fun k => w (ix2 q k))

/-- The whole result array as one function of the two argument arrays. -/
def result (x : SX.Idx → EReal) (w : SW.Idx → EReal) : SO.Idx → EReal := fun i =>
  entry x w ⟨(i 0).val, (i 0).isLt⟩ ⟨(i 1).val, (i 1).isLt⟩

theorem result_ix2 (x : SX.Idx → EReal) (w : SW.Idx → EReal) (p : Fin 65536) (q : Fin 1024) :
    result x w (ix2 p q) = entry x w p q := rfl

end Cert.Distance

end
-- ==== Proof.Columns.lean ====
/-
  A column kept by a row sum, read at an index: a vector of length `a` cast to an `a × 1` column holds, in row `i`,
  entry `i` of the vector; and an `a × 1` column broadcast over `b` columns holds, at (p, c), the column's entry in row `p`.
-/
import Idealize.ShloMosaic.Lib.ValueLayout

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.Payload.lean ====
/-
  The kernel body's stored value at an index. The body loads a 2048 × 128 block `x0` of the first argument and the whole
  1024 × 128 second argument `x1`, and stores a 2048 × 1024 block whose entry (p, q) is
  (−1/2) · √(max(|x0 row p|² + |x1 row q|² − 2·⟨x0 row p, x1 row q⟩, 0)):
  • the row sums of x0·x0, kept as a column and spread over the 1024 columns, give |x0 row p|² at (p, q);
  • the row sums of x1·x1, kept as a column, transposed to a row and spread over the 2048 rows, give |x1 row q|² at (p, q);
  • the matrix product of x0 with the transpose of x1, into a zero accumulator, is ∑ₖ x0(p, k) · x1(q, k) at (p, q);
  everything else in the body is pointwise.
-/
import proofs.«154902_j60292750901529_1_alg».proof.Proof.Gen.KernelIdeal.Skeleton
import proofs.«154902_j60292750901529_1_alg».proof.Proof.Distance
import proofs.«154902_j60292750901529_1_alg».proof.Proof.Columns
import Idealize.ShloMosaic.PureOps.Ideal.Laws
import Idealize.ShloMosaic.Lib.ValueIdx
import Idealize.ShloMosaic.Lib.ValueLayout

noncomputable section

namespace Cert.KernelIdeal.Payload

open Cert.KernelIdeal Cert.KernelIdeal.Gen Idealize.ShloMosaic Idealize.ShloMosaic.ValueIdx

/-- A block's row sums, kept as a column and spread over the columns: at (p, q), the sum of row p. -/
theorem rowsum_spread (v : FVec Ideal S2048x128 .f32) (h : S2048x128.Reduces [1] S2048) (hφ : FKind.Formats .f32)
    (hacc : (0x00000000#32 : BitVec 32) = FKind.add.neutral .f32 hφ) (hc : S2048.ShapeCasts S2048x1)
    (hb : S2048x1.Broadcasts S2048x1024) (p : Fin 2048) (q : Fin 1024) :
    broadcastTo S2048x1024 (shapeCast S2048x1 (multiReduction .add [1] S2048 v 0x00000000#32 h hφ hacc) hc) hb (ix2 p q)
      = ∑ k : Fin 128, v (ix2 p k) := by
  refine (Cert.Columns.broadcastTo_a1_ab_apply _ hb p q).trans ?_
  refine (Cert.Columns.shapeCast_a_a1_apply _ hc p 0).trans ?_
  refine (Ideal.multiReduction_add_single v _ h hφ hacc (ix1 p)).trans ?_
  exact Finset.sum_congr rfl fun k _ => congrArg v
    (funext fun a => Fin.ext (by match a with | ⟨0, _⟩ => rfl | ⟨1, _⟩ => rfl))

/-- The second argument's row sums, kept as a column, turned into a row and spread over the rows: at (p, q), the sum of
    row q. -/
theorem rowsum_transposed_spread (v : FVec Ideal S1024x128 .f32) (h : S1024x128.Reduces [1] S1024) (hφ : FKind.Formats .f32)
    (hacc : (0x00000000#32 : BitVec 32) = FKind.add.neutral .f32 hφ) (hc : S1024.ShapeCasts S1024x1)
    (ht : S1024x1.Transposes [1, 0] S1x1024) (hb : S1x1024.Broadcasts S2048x1024) (p : Fin 2048) (q : Fin 1024) :
    broadcastTo S2048x1024 (transpose S1x1024 [1, 0] (shapeCast S1024x1 (multiReduction .add [1] S1024 v 0x00000000#32 h hφ hacc) hc) ht) hb (ix2 p q)
      = ∑ k : Fin 128, v (ix2 q k) := by
  refine (broadcastTo_1b_ab_apply _ hb p q).trans ?_
  refine (transpose_ix2_apply _ ht (0 : Fin 1) q).trans ?_
  refine (Cert.Columns.shapeCast_a_a1_apply _ hc q 0).trans ?_
  refine (Ideal.multiReduction_add_single v _ h hφ hacc (ix1 q)).trans ?_
  exact Finset.sum_congr rfl fun k _ => congrArg v
    (funext fun a => Fin.ext (by match a with | ⟨0, _⟩ => rfl | ⟨1, _⟩ => rfl))

/-! The product's operand indices at output index `i` and contraction index `c`: the left operand is read at
    (row of `i`, c), the right operand at (c, column of `i`). -/

theorem lhs_row (i : S2048x1024.Idx) (c : dot_S2048x128_S128x1024_S2048x1024_1_0_0_1_n_n.contr.Idx) :
    (dot_S2048x128_S128x1024_S2048x1024_1_0_0_1_n_n.lhsIdx i c 0).val = (i 0).val := by
  unfold DotDims.lhsIdx
  rw [dif_neg (show ¬(0 : Fin S2048x128.rank) ∈ dot_S2048x128_S128x1024_S2048x1024_1_0_0_1_n_n.lhsBatch by decide),
    dif_pos (show (0 : Fin S2048x128.rank) ∈ dot_S2048x128_S128x1024_S2048x1024_1_0_0_1_n_n.lhsNonContracting by decide)]
  rfl

theorem lhs_contr (i : S2048x1024.Idx) (c : dot_S2048x128_S128x1024_S2048x1024_1_0_0_1_n_n.contr.Idx) :
    (dot_S2048x128_S128x1024_S2048x1024_1_0_0_1_n_n.lhsIdx i c 1).val = (c ⟨0, by decide⟩).val :=
  dot_S2048x128_S128x1024_S2048x1024_1_0_0_1_n_n.lhsIdx_val_of_single rfl i c

theorem rhs_contr (i : S2048x1024.Idx) (c : dot_S2048x128_S128x1024_S2048x1024_1_0_0_1_n_n.contr.Idx) :
    (dot_S2048x128_S128x1024_S2048x1024_1_0_0_1_n_n.rhsIdx i c 0).val = (c ⟨0, by decide⟩).val :=
  dot_S2048x128_S128x1024_S2048x1024_1_0_0_1_n_n.rhsIdx_val_of_single rfl i c

theorem rhs_col (i : S2048x1024.Idx) (c : dot_S2048x128_S128x1024_S2048x1024_1_0_0_1_n_n.contr.Idx) :
    (dot_S2048x128_S128x1024_S2048x1024_1_0_0_1_n_n.rhsIdx i c 1).val = (i 1).val := by
  unfold DotDims.rhsIdx
  rw [dif_neg (show ¬(1 : Fin S128x1024.rank) ∈ dot_S2048x128_S128x1024_S2048x1024_1_0_0_1_n_n.rhsBatch by decide),
    dif_pos (show (1 : Fin S128x1024.rank) ∈ dot_S2048x128_S128x1024_S2048x1024_1_0_0_1_n_n.rhsNonContracting by decide)]
  rfl

/-- The matrix product of the block with the transposed second argument, into a zero accumulator: at (p, q), the inner
    product of row p of the block with row q of the second argument. -/
theorem product_rows (x0 : FVec Ideal S2048x128 .f32) (x1 : FVec Ideal S1024x128 .f32)
    (ht : S1024x128.Transposes [1, 0] S128x1024) (p : Fin 2048) (q : Fin 1024) :
    matmul dot_S2048x128_S128x1024_S2048x1024_1_0_0_1_n_n none x0 (transpose S128x1024 [1, 0] x1 ht)
        (constant S2048x1024 .f32 0x00000000#32) (ix2 p q)
      = ∑ k : Fin 128, x0 (ix2 p k) * x1 (ix2 q k) := by
  refine (Ideal.matmul_constant_zero_apply dot_S2048x128_S128x1024_S2048x1024_1_0_0_1_n_n none x0 _ (ix2 p q)).trans ?_
  rw [← Equiv.sum_comp (ValueIdx.contrEquiv1 dot_S2048x128_S128x1024_S2048x1024_1_0_0_1_n_n 128 rfl rfl).symm]
  refine Finset.sum_congr rfl fun k _ => ?_
  have hk := ValueIdx.contrEquiv1_symm_val dot_S2048x128_S128x1024_S2048x1024_1_0_0_1_n_n 128 rfl rfl k
  have el : dot_S2048x128_S128x1024_S2048x1024_1_0_0_1_n_n.lhsIdx (ix2 p q)
      ((ValueIdx.contrEquiv1 dot_S2048x128_S128x1024_S2048x1024_1_0_0_1_n_n 128 rfl rfl).symm k) = ix2 p k :=
    funext fun a => Fin.ext (by
      match a with
      | ⟨0, _⟩ => exact lhs_row _ _
      | ⟨1, _⟩ => exact (lhs_contr _ _).trans hk)
  have er : dot_S2048x128_S128x1024_S2048x1024_1_0_0_1_n_n.rhsIdx (ix2 p q)
      ((ValueIdx.contrEquiv1 dot_S2048x128_S128x1024_S2048x1024_1_0_0_1_n_n 128 rfl rfl).symm k) = ix2 k q :=
    funext fun a => Fin.ext (by
      match a with
      | ⟨0, _⟩ => exact (rhs_contr _ _).trans hk
      | ⟨1, _⟩ => exact rhs_col _ _)
  rw [el, er]
  exact congrArg (x0 (ix2 p k) * ·) (transpose_ix2_apply x1 ht k q)

/-- THE BODY'S STORED VALUE at (p, q). -/
theorem pay_apply (x0 : Vec Ideal S2048x128 .f32) (x1 : Vec Ideal S1024x128 .f32) (p : Fin 2048) (q : Fin 1024) :
    k0_pay1 (F := Ideal) x0 x1 (ix2 p q)
      = Cert.Distance.halfNegDist (fun k => x0 (ix2 p k)) (fun k => x1 (ix2 q k)) := by
  have hA := rowsum_spread (mulf x0 x0) reduces_S2048x128_S2048 (.inl rfl) rfl shapeCasts_S2048_S2048x1
    broadcasts_S2048x1_S2048x1024 p q
  have hB := rowsum_transposed_spread (mulf x1 x1) reduces_S1024x128_S1024 (.inl rfl) rfl shapeCasts_S1024_S1024x1
    transposes_S1024x1_p1_0_S1x1024 broadcasts_S1x1024_S2048x1024 p q
  have hM := product_rows x0 x1 transposes_S1024x128_p1_0_S128x1024 p q
  unfold k0_pay1 Cert.Distance.halfNegDist Cert.Distance.sqdist
  exact congrArg (fun t => Ideal.ofBits .f32 0xBF000000#32 * Ideal.sqrt (max t (Ideal.ofBits .f32 0x00000000#32)))
    (congrArg₂ (fun a d => a - Ideal.ofBits .f32 0x40000000#32 * d) (congrArg₂ (· + ·) hA hB) hM)

end Cert.KernelIdeal.Payload

end
-- ==== Proof.KernelValue.lean ====
/-
  The kernel's result array as one function of its two argument arrays.

  The grid has 32 points. Point `t` stages rows 2048·t … 2048·t + 2047 of the first argument (all 128 columns) and the
  whole second argument, and writes back rows 2048·t … 2048·t + 2047 of the result (all 1024 columns). Entry (r, q) of
  the block point `t` writes is, by the body's arithmetic, `Distance.halfNegDist` of row r of the staged block — which is
  row 2048·t + r of the first argument — and row q of the second argument: that is entry (2048·t + r, q) of
  `Distance.result`. So every point writes its block of ONE whole-array function, and since row i lies in the block of
  point i / 2048 the 32 blocks cover the result array, which therefore ends holding that function.
-/
import proofs.«154902_j60292750901529_1_alg».proof.Proof.Gen.KernelIdeal.Value
import proofs.«154902_j60292750901529_1_alg».proof.Proof.Payload
import proofs.«154902_j60292750901529_1_alg».proof.Proof.Distance

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 32 grid points: the first argument's block and the result's block are both row
    block `t` (column block 0); the second argument's block is always the whole array. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a written block, over plain variables: if `x0` is row block `b` of `X` and `x1` is all of `W`, the body's
    value at `y` is `Distance.result X W` at the array index `i` lying 2048·b rows below `y`. -/
theorem block_entry (X : Cert.Distance.SX.Idx → EReal) (W : Cert.Distance.SW.Idx → EReal)
    (x0 : Vec Ideal S2048x128 .f32) (x1 : Vec Ideal S1024x128 .f32) (y : S2048x1024.Idx) (i : S65536x1024.Idx) (b : Nat)
    (h0 : ∀ (r : Fin 2048) (R : Fin 65536) (k : Fin 128), R.val = b * 2048 + r.val → x0 (ix2 r k) = X (ix2 R k))
    (h1 : ∀ (r : Fin 1024) (k : Fin 128), x1 (ix2 r k) = W (ix2 r k))
    (hi0 : (i 0).val = b * 2048 + (y 0).val) (hi1 : (i 1).val = (y 1).val) :
    k0_pay1 (F := Ideal) x0 x1 y = Cert.Distance.result X W i := by
  obtain ⟨p, q, rfl⟩ : ∃ (p : Fin 2048) (q : Fin 1024), y = ix2 p q := ⟨y 0, y 1, eq_ix2 y⟩
  obtain ⟨P, Q, rfl⟩ : ∃ (P : Fin 65536) (Q : Fin 1024), i = ix2 P Q := ⟨i 0, i 1, eq_ix2 i⟩
  have hQ : Q = q := Fin.ext hi1
  subst hQ
  rw [Cert.KernelIdeal.Payload.pay_apply, Cert.Distance.result_ix2]
  unfold Cert.Distance.entry
  exact congrArg₂ Cert.Distance.halfNegDist (funext fun k => h0 p P k hi0) (funext fun k => h1 Q k)

/-- WHAT POINT `t` WRITES BACK is block `t` of `Distance.result` of the argument arrays. -/
theorem flushed_eq (c : Dev nD) (t : Fin cfg0.N) :
    (dats m 0 c).flushed 2 t
      = ((cfg0.win 2).blk t).view.read (Elt Ideal) (Cert.Distance.result (V m c main_arg0) (V m c main_arg1)) := by
  rw [Cert.KernelIdeal.Value.flushed2]
  unfold out0_2
  rw [View.canon_unit_zero zero_offsets]
  simp only [View.ld_unit_zero (S := S2048x128) zero_offsets, View.ld_unit_zero (S := S1024x128) zero_offsets]
  obtain ⟨e0, e1, e2, e3, e4, e5⟩ := index_facts t
  funext j
  show k0_pay1 (F := Ideal) (iblk m c 0 t) (iblk m c 1 t) j
    = Cert.Distance.result (V m c main_arg0) (V m c main_arg1) (((cfg0.win 2).blk t).view.emb j)
  refine block_entry (V m c main_arg0) (V m c main_arg1) (iblk m c 0 t) (iblk m c 1 t) j
    (((cfg0.win 2).blk t).view.emb j) t.val ?_ ?_ ?_ ?_
  · intro r R k hR
    show V m c main_arg0 (((cfg0.win 0).blk t).view.emb (ix2 r k)) = V m c main_arg0 (ix2 R k)
    refine congrArg _ (funext fun a => Fin.ext ?_)
    match a with
    | ⟨0, _⟩ => show win0_0.index t (0 : Fin 2) * 2048 + 1 * r.val = R.val; omega
    | ⟨1, _⟩ => show win0_0.index t (1 : Fin 2) * 128 + 1 * k.val = k.val; omega
  · intro r k
    show V m c main_arg1 (((cfg0.win 1).blk t).view.emb (ix2 r k)) = V m c main_arg1 (ix2 r k)
    refine congrArg _ (funext fun a => Fin.ext ?_)
    match a with
    | ⟨0, _⟩ => show win0_1.index t (0 : Fin 2) * 1024 + 1 * r.val = r.val; omega
    | ⟨1, _⟩ => show win0_1.index t (1 : Fin 2) * 128 + 1 * k.val = k.val; omega
  · show win0_2.index t (0 : Fin 2) * 2048 + 1 * (j 0).val = t.val * 2048 + (j 0).val; omega
  · show win0_2.index t (1 : Fin 2) * 1024 + 1 * (j 1).val = (j 1).val; omega

/-- An index of the result array is in point `t`'s block iff each coordinate is in the block's range on its axis. -/
theorem mem_blk (t : Fin cfg0.N) (i : S65536x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- THE BLOCKS COVER THE ARRAY: row `i` is in the block of point `i / 2048`. -/
theorem cover (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  have hN : grid0.N = 32 := N_0
  have ht : (i 0).val / 2048 < cfg0.N := by show (i 0).val / 2048 < grid0.N; rw [hN]; omega
  obtain ⟨-, -, -, -, e4, e5⟩ := index_facts ⟨(i 0).val / 2048, ht⟩
  refine ⟨⟨(i 0).val / 2048, ht⟩, flush0_2 _, ?_⟩
  rw [mem_blk]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, ht⟩ (1 : Fin 2) * 1024 ≤ (i 1).val
      ∧ (i 1).val < win0_2.index ⟨(i 0).val / 2048, ht⟩ (1 : Fin 2) * 1024 + 1024
    rw [e5]; omega

/-- THE RESULT ARRAY after the run is `Distance.result` of the two argument arrays. -/
theorem final (c : Dev nD) :
    (dats m 0 c).arrAt 2 cfg0.N
      = Cert.Distance.result (m ((c : Thread nD τ).loc main_arg0)) (m ((c : Thread nD τ).loc main_arg1)) :=
  (dats m 0 c).arrAt_eq_of_cover 2 (Cert.Distance.result (V m c main_arg0) (V m c main_arg1))
    (fun t _ => flushed_eq m c t) cover

/-- The kernel's run: it terminates with the result array at `Distance.result` of the arguments, the arguments unchanged. -/
theorem run : θ_run defs (onTc (τ := τ) (main (F := Ideal))) ⟨m, fun _ => 0, ρ⟩ fun r => ∀ c : Dev nD,
      r.2.mem ((c : Thread nD τ).loc main_v0)
        = Cert.Distance.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.KernelValue

end
-- ==== Proof.ReferenceValue.lean ====
/-
  The reference program's result, read one operation at a time, is the function `Distance.result` of its two arguments.

  Entry (p, q): the host's two row sums each start from the zero constant, which adds nothing; its product of the first
  argument with the transposed second is the sum over k of x(p, k) · w(q, k); the expansion, the clamp and the square
  root are spelt as in `Distance.sqdist` / `halfNegDist`; and its last three steps — negate, divide by 2, then the
  logarithm of the exponential — are multiplication by −1/2 (`Distance.log_exp_neg_half`).
-/
import proofs.«154902_j60292750901529_1_alg».proof.Proof.Gen.ReferenceIdeal.Read
import proofs.«154902_j60292750901529_1_alg».proof.Proof.Distance

noncomputable section

namespace Cert.ReferenceIdeal.RefValue

open Cert.ReferenceIdeal Cert.ReferenceIdeal.Read Idealize.ShloMosaic Idealize.ShloMosaic.ValueIdx

theorem value_eq (x : (⟨S65536x128, .f32⟩ : BufTy).Contents (Elt Ideal)) (w : (⟨S1024x128, .f32⟩ : BufTy).Contents (Elt Ideal)) :
    val_main_v21 (F := Ideal) x w = Cert.Distance.result x w := by
  funext i
  obtain ⟨p, q, rfl⟩ : ∃ (p : Fin 65536) (q : Fin 1024), i = ix2 p q := ⟨i 0, i 1, eq_ix2 i⟩
  -- which entries of the arguments each sum reads: row p of x, row q of w
  have ex : ∀ k : Fin 128, idx_main_v1 (idx_main_v4 (idx_main_v6 (ix2 p q))) k = ix2 p k := fun k =>
    funext fun a => Fin.ext (by match a with | ⟨0, _⟩ => rfl | ⟨1, _⟩ => rfl)
  have ew : ∀ k : Fin 128, idx_main_v3 (idx_main_v5 (idx_main_v7 (ix2 p q))) k = ix2 q k := fun k =>
    funext fun a => Fin.ext (by match a with | ⟨0, _⟩ => rfl | ⟨1, _⟩ => rfl)
  have el : ∀ k : Fin 128, lidx_main_v10 (ix2 p q) k = ix2 p k := fun k =>
    funext fun a => Fin.ext (by match a with | ⟨0, _⟩ => rfl | ⟨1, _⟩ => rfl)
  have er : ∀ k : Fin 128, idx_main_v9 (ridx_main_v10 (ix2 p q) k) = ix2 q k := fun k =>
    funext fun a => Fin.ext (by match a with | ⟨0, _⟩ => rfl | ⟨1, _⟩ => rfl)
  rw [val_main_v21_apply, val_main_v20_apply, val_main_v19_apply, val_main_v17_apply, val_main_v16_apply,
    val_main_v15_apply, val_main_v13_apply, val_main_v8_apply, val_main_v6_apply, val_main_v4_apply, val_main_v1_apply,
    val_main_v7_apply, val_main_v5_apply, val_main_v3_apply, val_main_v12_apply, val_main_v11_apply, val_main_v10_apply,
    val_main_v14_apply, val_main_v18_apply]
  simp only [val_main_v0_apply, val_main_v2_apply, val_main_v9_apply, val_main_cst_apply, val_main_cst_0_apply,
    val_main_cst_1_apply, val_main_cst_2_apply, val_main_cst_3_apply, ex, ew, el, er,
    Ideal.hostUnary_log_def, Ideal.hostUnary_exp_def, Ideal.hostDivf_def, Ideal.hostNegf_def, Ideal.negf_def,
    Ideal.hostUnary_sqrt_def, Ideal.maximumf_def, Ideal.subf_def, Ideal.addf_def, Ideal.mulf_def, Ideal.ofBits_def]
  rw [Cert.Distance.log_exp_neg_half, Cert.Distance.result_ix2]
  unfold Cert.Distance.entry Cert.Distance.halfNegDist Cert.Distance.sqdist
  rw [Ideal.ofBits_zero_f32, zero_add, zero_add]

end Cert.ReferenceIdeal.RefValue

end
-- ==== Proof.lean ====
/-
  Minus half the Euclidean distance between every row of a 65536 × 128 array `x` and every row of a 1024 × 128 array `w`.

  Both programs expand the squared distance between row p of `x` and row q of `w` as |x_p|² + |w_q|² − 2·⟨x_p, w_q⟩, clamp it
  below at zero and take the square root s. The kernel, which works on 32 blocks of 2048 rows of `x` against all of `w`,
  returns (−1/2)·s; the reference returns log (exp (−s / 2)). Over the extended reals, with every operation exact:
  • a row sum and a matrix product are the same finite sums on both sides, whatever the tiling (`Payload`, `KernelValue`
    for the kernel; `ReferenceValue` for the reference);
  • the logarithm undoes the exponential at every extended real, the infinities included, and dividing −s by 2 is
    multiplying s by −1/2 (`Distance.log_exp_neg_half`).
  So both result arrays are the one function `Distance.result` of the argument arrays. The law that joins the two sides
  holds at every extended real, so the finiteness of the inputs is not used. The idealization rewrote no operation of the
  kernel, so there is nothing to preserve beyond the program's own text.
-/
import proofs.«154902_j60292750901529_1_alg».proof.Defs
import proofs.«154902_j60292750901529_1_alg».proof.Proof.Gen.Kernel
import proofs.«154902_j60292750901529_1_alg».proof.Proof.Gen.Kernel.Frame
import proofs.«154902_j60292750901529_1_alg».proof.Proof.Gen.KernelIdeal
import proofs.«154902_j60292750901529_1_alg».proof.Proof.Gen.KernelIdeal.Frame
import proofs.«154902_j60292750901529_1_alg».proof.Proof.Gen.KernelIdeal.Value
import proofs.«154902_j60292750901529_1_alg».proof.Proof.Gen.ReferenceIdeal
import proofs.«154902_j60292750901529_1_alg».proof.Proof.Gen.ReferenceIdeal.Run
import proofs.«154902_j60292750901529_1_alg».proof.Proof.Gen.ReferenceIdeal.Read
import proofs.«154902_j60292750901529_1_alg».proof.Proof.Gen.Pre_finite_inputs
import proofs.«154902_j60292750901529_1_alg».proof.Proof.Distance
import proofs.«154902_j60292750901529_1_alg».proof.Proof.KernelValue
import proofs.«154902_j60292750901529_1_alg».proof.Proof.ReferenceValue

noncomputable section

namespace Cert.Proof

open Idealize.ShloMosaic Idealize.ShloMosaic.TcCoe Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's are both
    `Distance.result` of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.value_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
